-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x8192.size a
  hwx0_0 : ∀ i : grid0.Coords, EltTy.bits .f32 = 32 ∨ (Rect.block (s := S8192x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x8192.size a
  hwx0_1 : ∀ i : grid0.Coords, EltTy.bits .f32 = 32 ∨ (Rect.block (s := S8192x8192) S512x2048.size (cc0_transform_1 i) (hinb0_1 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)

variable [Facts₀]

class Facts : Prop extends Facts₀ where

variable [Facts]
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«154410_j76166950028047_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.SquarePlusDouble.lean ====
/-
  The law that joins the two programs: for a real number x and a real constant c,
      x·x + c·x  =  x·(x + c) .
  Over the extended reals in general this is false: at x = −∞ and c = 2 the left side is (+∞) + (−∞) = −∞ while
  the right side is (−∞)·(−∞) = +∞. With x and c real both sides are the coercion of one real number, by
  distributivity in ℝ. The constant of the two programs is the pattern 0x40000000 of the 32-bit format, which
  denotes the real number 2.
-/
import Mathlib
import Idealize.ShloMosaic.PureOps.Ideal
import proofs.«154410_j76166950028047_2_alg».proof.Proof.LibRealSum

noncomputable section

open Idealize.ShloMosaic
open Cert.LibRealSum

namespace Cert.SquarePlusDouble

/-- The pattern 0x40000000 of the 32-bit format denotes the real number 2. -/
theorem ofBits_two : Ideal.ofBits .f32 0x40000000#32 = ((2 : ℝ) : EReal) := by
  simp [Ideal.ofBits, Ideal.ieee, -EReal.coe_mul]; norm_num

/-- So it is a real number. -/
theorem isReal_two : IsReal (Ideal.ofBits .f32 0x40000000#32) := ⟨2, ofBits_two⟩

/-- THE LAW: for real x and real c, x·x + c·x = x·(x + c). -/
theorem sq_add_mul (x c : EReal) (hx : IsReal x) (hc : IsReal c) : x * x + c * x = x * (x + c) := by
  obtain ⟨a, rfl⟩ := hx
  obtain ⟨b, rfl⟩ := hc
  rw [← EReal.coe_mul, ← EReal.coe_mul, ← EReal.coe_add, ← EReal.coe_add, ← EReal.coe_mul]
  exact congrArg _ (by ring)

end Cert.SquarePlusDouble

end
-- ==== Proof.SameFunction.lean ====
/-
  The two programs compute one function of a real array.

  The kernel writes, at every index i, x i · (x i + 2); the reference writes x i · x i + 2 · x i, the 2 a
  scalar constant spread over the whole array. When every entry of x is a real number the two arrays are equal,
  index by index, by the law x·x + c·x = x·(x + c) for reals.

  The precondition says that the conjunction over the whole array of the tests |x i| < +∞ is 1, on every device;
  so every entry of the argument array is a real number.
-/
import proofs.«154410_j76166950028047_2_alg».proof.Defs
import proofs.«154410_j76166950028047_2_alg».proof.Proof.Gen.Pre_finite_inputs
import proofs.«154410_j76166950028047_2_alg».proof.Proof.LibFiniteAll
import proofs.«154410_j76166950028047_2_alg».proof.Proof.SquarePlusDouble
import Idealize.ShloMosaic.Lib.ValueIdx

noncomputable section

open Idealize.ShloMosaic
open Cert.LibRealSum

namespace Cert.SameFunction

/-- Index by index: the sum of the square and of the spread constant 2 times x is x times (x + 2), for an array
    of real numbers of any shape. -/
theorem square_plus_double_eq {s : Shape}
    (hb : (⟨0, ![]⟩ : Shape).BroadcastsInDim s (![] : Fin 0 → Fin s.rank))
    (x : FVec Ideal s .f32) (hx : ∀ i, IsReal (x i)) :
    addf (mulf x x) (mulf (broadcastInDim s ![] hb (constant (F := Ideal) ⟨0, ![]⟩ .f32 0x40000000#32)) x)
      = fun i => FloatOps.mulf (x i) (FloatOps.addf (x i) (Scalar.ofBits .f32 0x40000000#32)) := by
  funext i
  simp only [addf, mulf, broadcastInDim, constant, Ideal.ofBits_def, Ideal.addf_def, Ideal.mulf_def]
  exact Cert.SquarePlusDouble.sq_add_mul (x i) _ (hx i) Cert.SquarePlusDouble.isReal_two

/-- Under the precondition every entry of the argument array is a real number. -/
theorem real_of_pre (x : FVec Ideal Cert.Pre_finite_inputs.S8192x8192 .f32)
    (h : Cert.Pre_finite_inputs.fn (F := Ideal) x = fun _ => 1#1) (i : Cert.Pre_finite_inputs.S8192x8192.Idx) :
    IsReal (x i) := by
  have e := congrFun h ValueIdx.ix0
  dsimp only [Cert.Pre_finite_inputs.fn] at e
  exact Cert.Lib.FiniteAll.all_real x _ _ _ _ e i

end Cert.SameFunction

end
-- ==== Proof.lean ====
/-
  The kernel computes x·(x + 2) over f32[8192, 8192], one 512 × 2048 block per grid point over a 16 × 4 grid whose
  blocks tile the array; the reference computes x·x + 2·x on the whole array. Over the extended reals the two differ
  at x = −∞ (the kernel gives (−∞)·(−∞) = +∞, the reference (+∞) + (−∞) = −∞), so the equality uses the
  precondition: every entry of x passes the test |x| < +∞ and is therefore a real number, and for real x and the
  real constant 2 both sides are the coercion of one real number, by distributivity in ℝ.

  The kernel's result array is x i · (x i + 2) at every index i (its generated value leg); the reference's result is
  the composed term of its three operations (its generated run); Proof/SameFunction.lean shows that the two are one
  function of a real array, and that the precondition makes the array real. The idealization rewrote no operation,
  so that claim is trivial. Each frame is the program's run with the result forgotten.
-/
import proofs.«154410_j76166950028047_2_alg».proof.Defs
import proofs.«154410_j76166950028047_2_alg».proof.Proof.Gen.Kernel.Frame
import proofs.«154410_j76166950028047_2_alg».proof.Proof.Gen.KernelIdeal.Value
import proofs.«154410_j76166950028047_2_alg».proof.Proof.Gen.Pre_finite_inputs
import proofs.«154410_j76166950028047_2_alg».proof.Proof.Gen.ReferenceIdeal.Run
import proofs.«154410_j76166950028047_2_alg».proof.Proof.SameFunction
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x, the kernel's array ends at x·(x + 2) and the reference's at x·x + 2·x; under the
    precondition x is an array of real numbers, on which the two are equal index by index. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.SameFunction.square_plus_double_eq _ _ (fun i => Cert.SameFunction.real_of_pre _ (hpre c) i)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
